-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x1x512x512 : Shape := ⟨4, ![32, 1, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : IVec S32x1x512x512 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x1x512x512 : Shape := ⟨4, ![32, 1, 512, 512]⟩
abbrev S2x3x512x512 : Shape := ⟨4, ![2, 3, 512, 512]⟩
abbrev S2x1x512x512 : Shape := ⟨4, ![2, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x1x512x512, .i32⟩
  | .hbm, ⟨2, _⟩ => ⟨S32x3x512x512, .f32⟩
  | .local _ .vmem, ⟨0, _⟩ => ⟨S2x3x512x512, .f32⟩
  | .local _ .vmem, ⟨1, _⟩ => ⟨S2x3x512x512, .f32⟩
  | .local _ .vmem, ⟨2, _⟩ => ⟨S2x1x512x512, .i32⟩
  | .local _ .vmem, ⟨3, _⟩ => ⟨S2x1x512x512, .i32⟩
  | .local _ .vmem, ⟨4, _⟩ => ⟨S2x3x512x512, .f32⟩
  | .local _ .vmem, ⟨5, _⟩ => ⟨S2x3x512x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x1x512x512_S2x1x512x512_0_0_0_0 : ∀ a, (![0, 0, 0, 0] : Fin 4 → Nat) a + S2x1x512x512.size a ≤ S2x1x512x512.size a
  h_S2x1x512x512 : 0 < S2x1x512x512.numel
  inb_S2x3x512x512_S2x1x512x512_0_0_0_0 : ∀ a, (![0, 0, 0, 0] : Fin 4 → Nat) a + S2x1x512x512.size a ≤ S2x3x512x512.size a
  inb_S2x3x512x512_S2x1x512x512_0_1_0_0 : ∀ a, (![0, 1, 0, 0] : Fin 4 → Nat) a + S2x1x512x512.size a ≤ S2x3x512x512.size a
  inb_S2x3x512x512_S2x1x512x512_0_2_0_0 : ∀ a, (![0, 2, 0, 0] : Fin 4 → Nat) a + S2x1x512x512.size a ≤ S2x3x512x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512x512.size a ≤ S32x3x512x512.size a
  hwx0_0 : ∀ i : grid0.Coords, EltTy.bits .f32 = 32 ∨ (Rect.block (s := S32x3x512x512) S2x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S32x1x512x512.size a
  hwx0_1 : ∀ i : grid0.Coords, EltTy.bits .i32 = 32 ∨ (Rect.block (s := S32x1x512x512) S2x1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x3x512x512.size a ≤ S32x3x512x512.size a
  hwx0_2 : ∀ i : grid0.Coords, EltTy.bits .f32 = 32 ∨ (Rect.block (s := S32x3x512x512) S2x3x512x512.size (cc0_transform_2 i) (hinb0_2 i)).WholeWords (EltTy.packing .f32)

variable [Facts₀]

abbrev win0_0 : Pipeline.Window sig grid0 :=
  Pipeline.Window.ofSpec (Memref.whole main_arg0) S2x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x1x512x512 : Shape := ⟨4, ![32, 1, 512, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x1x512x512, .i32⟩
  | .hbm, ⟨2, _⟩ => ⟨S_, .i32⟩
  | .hbm, ⟨3, _⟩ => ⟨S32x1x512x512, .i32⟩
  | .hbm, ⟨4, _⟩ => ⟨S32x1x512x512, .i1⟩
  | .hbm, ⟨5, _⟩ => ⟨S_, .i32⟩
  | .hbm, ⟨6, _⟩ => ⟨S32x1x512x512, .i32⟩
  | .hbm, ⟨7, _⟩ => ⟨S32x1x512x512, .i1⟩
  | .hbm, ⟨8, _⟩ => ⟨S_, .f32⟩
  | .hbm, ⟨9, _⟩ => ⟨S32x3x512x512, .i1⟩
  | .hbm, ⟨10, _⟩ => ⟨S32x3x512x512, .f32⟩
  | .hbm, ⟨11, _⟩ => ⟨S32x3x512x512, .f32⟩
  | .hbm, ⟨12, _⟩ => ⟨S_, .f32⟩
  | .hbm, ⟨13, _⟩ => ⟨S32x3x512x512, .i1⟩
  | .hbm, ⟨14, _⟩ => ⟨S32x3x512x512, .f32⟩
  | .hbm, ⟨15, _⟩ => ⟨S32x3x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩

abbrev nD : Nat := 1
abbrev τ : Topo := Topo.v7x

variable {F : FTy → Type} [FloatOps F]

class Facts₀ : Prop where
  bcast_S_S32x1x512x512 : S_.BroadcastsInDim S32x1x512x512 (![] : Fin 0 → Fin S32x1x512x512.rank)
  bcast_S32x1x512x512_S32x3x512x512_0_1_2_3 : S32x1x512x512.BroadcastsInDim S32x3x512x512 (![0, 1, 2, 3] : Fin 4 → Fin S32x3x512x512.rank)
  bcast_S_S32x3x512x512 : S_.BroadcastsInDim S32x3x512x512 (![] : Fin 0 → Fin S32x3x512x512.rank)

variable [Facts₀]

class Facts : Prop extends Facts₀ where

variable [Facts]
-- ==== Proof.SaltPepper.lean ====
/-
  Salt-and-pepper noise as one function of an image and an integer mask.

  An image has four axes (batch, channel, row, column); the mask has the same batch, row and column
  extents and ONE channel, which every channel of the image shares. A pixel whose mask entry is 0
  becomes 0 (pepper), one whose mask entry is 1 becomes 1 (salt), and every other pixel is kept.
  Nothing here is arithmetic on floats: the two constants are float words, and the result is chosen
  among them and the pixel by two integer comparisons. So the function is the same at every float
  instance, and no finiteness of the image is ever used.
-/
import Idealize.ShloMosaic.PureOps.Ideal
import Idealize.ShloMosaic.Lib.ValueIdx

noncomputable section

namespace Cert.SaltPepper

open Idealize.ShloMosaic Idealize.ShloMosaic.ValueIdx

variable {F : FTy → Type} [FloatOps F]

/-- One pixel `x` under the mask entry `k`: 0 if `k = 0`, else 1 if `k = 1`, else `x`. The comparison
    with 0 is made first, as both programs make it (it is the outer choice). -/
def pixel (k : BitVec 32) (x : F .f32) : F .f32 :=
  Scalar.select (IntOp.cmpi .eq k 0#32) (FloatOps.ofBits .f32 0x00000000#32)
    (Scalar.select (IntOp.cmpi .eq k 1#32) (FloatOps.ofBits .f32 0x3F800000#32) x)

/-- The mask entry a pixel reads: same batch entry, row and column; the mask's only channel. -/
def maskIdx {B C H W : Nat} (i : (⟨4, ![B, C, H, W]⟩ : Shape).Idx) : (⟨4, ![B, 1, H, W]⟩ : Shape).Idx :=
  ix4 (i 0 : Fin B) (0 : Fin 1) (i 2 : Fin H) (i 3 : Fin W)

/-- The noisy image: pixel by pixel, `pixel` of the shared mask entry and the image's pixel. -/
def noisy {B C H W : Nat} (img : (⟨4, ![B, C, H, W]⟩ : Shape).Idx → F .f32)
    (msk : (⟨4, ![B, 1, H, W]⟩ : Shape).Idx → BitVec 32) : (⟨4, ![B, C, H, W]⟩ : Shape).Idx → F .f32 :=
  fun i => pixel (msk (maskIdx i)) (img i)

theorem noisy_apply {B C H W : Nat} (img : (⟨4, ![B, C, H, W]⟩ : Shape).Idx → F .f32)
    (msk : (⟨4, ![B, 1, H, W]⟩ : Shape).Idx → BitVec 32) (i : (⟨4, ![B, C, H, W]⟩ : Shape).Idx) :
    noisy img msk i = pixel (msk (maskIdx i)) (img i) := rfl

end Cert.SaltPepper

end
-- ==== Proof.Reference.lean ====
/-
  The reference computes the noisy image.

  Its program compares the mask with 0 and with 1 (each constant broadcast to the mask's shape),
  broadcasts each comparison over the three channels, broadcasts the float constants 1 and 0 to the
  image's shape, and chooses twice: first between 1 and the image where the mask is 1, then between 0
  and that where the mask is 0. Read at a pixel, every broadcast of a constant is the constant, and the
  broadcast of a comparison over the channels reads the comparison at the pixel's batch entry, row and
  column in the mask's only channel: so the pixel is `SaltPepper.pixel` of that mask entry.
-/
import proofs.«176894_j10471130267771_2_alg».proof.Proof.Gen.ReferenceIdeal.Read
import proofs.«176894_j10471130267771_2_alg».proof.Proof.SaltPepper

noncomputable section

namespace Cert.ReferenceIdeal.Noise

open Cert.ReferenceIdeal Cert.ReferenceIdeal.Read Cert.SaltPepper Idealize.ShloMosaic Idealize.ShloMosaic.ValueIdx

variable {F : FTy → Type} [FloatOps F]

/-- The index at which the channel broadcast of the comparison with 1 reads its operand is the pixel's
    mask entry. -/
theorem idx_call0 (i : S32x3x512x512.Idx) : idx_main_call0_v0 i = maskIdx i :=
  funext fun a => Fin.ext (by match a with | ⟨0, _⟩ => rfl | ⟨1, _⟩ => rfl | ⟨2, _⟩ => rfl | ⟨3, _⟩ => rfl)

/-- The same for the comparison with 0. -/
theorem idx_call1 (i : S32x3x512x512.Idx) : idx_main_call1_v0 i = maskIdx i :=
  funext fun a => Fin.ext (by match a with | ⟨0, _⟩ => rfl | ⟨1, _⟩ => rfl | ⟨2, _⟩ => rfl | ⟨3, _⟩ => rfl)

/-- The reference's result, as a function of its two arguments, is the noisy image. -/
theorem result_eq (img : FVec F S32x3x512x512 .f32) (msk : IVec S32x1x512x512 32) :
    val_main_v5 (F := F) img msk = noisy img msk := by
  funext i
  rw [val_main_v5_apply, val_main_call1_v0_apply, val_main_call1_v1_apply, val_main_cst_1_apply, val_main_v1_apply,
    val_main_v0_apply, val_main_c_apply, val_main_v4_apply, val_main_call0_v0_apply, val_main_call0_v1_apply,
    val_main_cst_apply, val_main_v3_apply, val_main_v2_apply, val_main_c_0_apply, idx_call0, idx_call1]
  rfl

end Cert.ReferenceIdeal.Noise

end
-- ==== Proof.Block.lean ====
/-
  What the kernel's body leaves in its output block is the noisy image of its two input blocks.

  At a grid point the body holds an image block of two batch entries (three channels each) and the mask
  block of the same two batch entries (one channel). It loads the mask block once, and for each of the
  three channels loads that channel's slab of the image block (the rectangle at channel offset 0, 1 or 2,
  one channel thick), chooses pixel by pixel between 0, 1 and the slab, and stores the result through the
  same rectangle of the output block. The three rectangles tile the output block, and each stored slab is
  the corresponding slab of ONE function of the block's index, `SaltPepper.noisy` of the two blocks:
  a pixel at position `x` of the slab at channel `c` sits at (x₀, c, x₂, x₃) in the block, and the
  mask entry it was chosen by, at position `x` of the mask block, is the entry (x₀, 0, x₂, x₃) that
  `maskIdx` names, since the slab and the mask block are both one channel thick.
-/
import proofs.«176894_j10471130267771_2_alg».proof.Proof.Gen.KernelIdeal.Frame
import proofs.«176894_j10471130267771_2_alg».proof.Proof.SaltPepper
import Idealize.ShloMosaic.Lib.Pipeline.Value

noncomputable section

namespace Cert.KernelIdeal.Noise

open Cert.KernelIdeal Cert.KernelIdeal.Gen Cert.SaltPepper Idealize.ShloMosaic Idealize.ShloMosaic.ValueIdx

variable {F : FTy → Type} [FloatOps F]

/-- The three stored values, at a position of the slab, are `pixel` of the mask block's entry and the image
    slab's entry at that position: each is the two choices of the body written pointwise. -/
theorem stored0_apply (k : Vec F S2x1x512x512 .i32) (x : Vec F S2x1x512x512 .f32) (j : S2x1x512x512.Idx) :
    k0_pay3 k x j = pixel (k j) (x j) := rfl
theorem stored1_apply (k : Vec F S2x1x512x512 .i32) (x : Vec F S2x1x512x512 .f32) (j : S2x1x512x512.Idx) :
    k0_pay4 k x j = pixel (k j) (x j) := rfl
theorem stored2_apply (k : Vec F S2x1x512x512 .i32) (x : Vec F S2x1x512x512 .f32) (j : S2x1x512x512.Idx) :
    k0_pay5 k x j = pixel (k j) (x j) := rfl

/-- A position of the one-channel-thick slab at channel offset `ch` of the block shares its mask entry with the
    same position of the mask block. -/
theorem mask_of_slab (ch : Nat) (inb : ∀ a, (![0, ch, 0, 0] : Fin 4 → Nat) a + S2x1x512x512.size a ≤ S2x3x512x512.size a)
    (x : S2x1x512x512.Idx) :
    r0_0.emb x = maskIdx ((Rect.unit (s := S2x3x512x512) ![0, ch, 0, 0] S2x1x512x512.size inb).emb x) := by
  funext a; apply Fin.ext
  match a with
  | ⟨0, _⟩ => rfl
  | ⟨1, _⟩ =>
    show 0 + 1 * (x 1).val = 0
    have h : (x 1).val < 1 := (x 1).isLt
    omega
  | ⟨2, _⟩ => rfl
  | ⟨3, _⟩ => rfl

/-- THE BODY'S RESULT: the output block after the body is the noisy image of the image block and the mask block. -/
theorem body_eq (x0 : Vec F S2x3x512x512 .f32) (x1 : Vec F S2x1x512x512 .i32) : out0_2 x0 x1 = noisy x0 x1 := by
  funext y
  unfold out0_2
  refine View.canon_apply_of_pieces (noisy x0 x1) _ ?_ y (cover0_2 _ _ _ y)
  intro p hp x
  simp only [List.mem_cons, List.not_mem_nil, or_false] at hp
  rcases hp with rfl | rfl | rfl
  · show k0_pay5 (View.ld x1 r0_0) (View.ld x0 r0_3) x = noisy x0 x1 (r0_3.emb x)
    rw [stored2_apply, noisy_apply, ← mask_of_slab 2 _ x]; rfl
  · show k0_pay4 (View.ld x1 r0_0) (View.ld x0 r0_2) x = noisy x0 x1 (r0_2.emb x)
    rw [stored1_apply, noisy_apply, ← mask_of_slab 1 _ x]; rfl
  · show k0_pay3 (View.ld x1 r0_0) (View.ld x0 r0_1) x = noisy x0 x1 (r0_1.emb x)
    rw [stored0_apply, noisy_apply, ← mask_of_slab 0 _ x]; rfl

end Cert.KernelIdeal.Noise

end
-- ==== Proof.Whole.lean ====
/-
  From blocks to the array: after the kernel's run the output array is the noisy image of the two
  argument arrays.

  The grid has sixteen points; at point `t` every window's block index is (t, 0, 0, 0): the image and the
  output blocks are batch entries 2t and 2t + 1 with all channels, rows and columns, and the mask block is
  the same two batch entries of the mask. So an entry (x₀, c, x₂, x₃) of the output block sits at
  (2t + x₀, c, x₂, x₃) in the array, the image entry the body read for it sits at the same place, and the
  mask entry (x₀, 0, x₂, x₃) it was chosen by sits at (2t + x₀, 0, x₂, x₃) in the mask — the entry
  `maskIdx` names for that array index. Hence what point `t` writes back is block `t` of the noisy image of
  the WHOLE arrays. Batch entry `b` lies in the block of point `b / 2`, so the sixteen blocks cover the
  array, and the array ends as that one function.
-/
import proofs.«176894_j10471130267771_2_alg».proof.Proof.Gen.KernelIdeal.Value
import proofs.«176894_j10471130267771_2_alg».proof.Proof.Block

noncomputable section

namespace Cert.KernelIdeal.Noise

open Cert.KernelIdeal Cert.KernelIdeal.Gen Cert.SaltPepper Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The three index maps, decided over the sixteen points: at point `t` each window's block index is
    (t, 0, 0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- Blocks of arrays read through maps that agree: if the image block's entries sit where the output block's do,
    and the mask block's entry for a pixel sits at the mask entry of the pixel's place, the noisy image of the two
    blocks is the block of the noisy image of the arrays. -/
theorem noisy_of_blocks (img : FVec F S32x3x512x512 .f32) (msk : IVec S32x1x512x512 32)
    (e0 e2 : S2x3x512x512.Idx → S32x3x512x512.Idx) (e1 : S2x1x512x512.Idx → S32x1x512x512.Idx)
    (h0 : ∀ j, e0 j = e2 j) (h1 : ∀ j, e1 (maskIdx j) = maskIdx (e2 j)) :
    noisy (fun j => img (e0 j)) (fun j => msk (e1 j)) = fun j => noisy img msk (e2 j) := by
  funext j
  rw [noisy_apply, noisy_apply, h0, h1]

/-- WHAT POINT `t` WRITES BACK is block `t` of the noisy image of the argument arrays. -/
theorem flushed_eq (c : Dev nD) (t : Fin cfg0.N) :
    (dats m 0 c).flushed 2 t
      = ((cfg0.win 2).blk t).view.read (Elt F) (noisy (V m c main_arg0) (V m c main_arg1)) := by
  refine (Value.flushed2 m c t).trans ?_
  rw [body_eq (iblk m c 0 t) (iblk m c 1 t)]
  obtain ⟨a0, a1, a2, a3, b0, b1, b2, b3, c0, c1, c2, c3⟩ := idx_facts t
  show noisy (fun j => V m c main_arg0 (((cfg0.win 0).blk t).view.emb j)) (fun j => V m c main_arg1 (((cfg0.win 1).blk t).view.emb j))
      = fun j => noisy (V m c main_arg0) (V m c main_arg1) (((cfg0.win 2).blk t).view.emb j)
  refine noisy_of_blocks _ _ _ _ _ (fun j => ?_) (fun j => ?_)
  · funext a; apply Fin.ext
    match a with
    | ⟨0, _⟩ => show win0_0.index t (0 : Fin 4) * 2 + 1 * (j 0).val = win0_2.index t (0 : Fin 4) * 2 + 1 * (j 0).val; omega
    | ⟨1, _⟩ => show win0_0.index t (1 : Fin 4) * 3 + 1 * (j 1).val = win0_2.index t (1 : Fin 4) * 3 + 1 * (j 1).val; omega
    | ⟨2, _⟩ => show win0_0.index t (2 : Fin 4) * 512 + 1 * (j 2).val = win0_2.index t (2 : Fin 4) * 512 + 1 * (j 2).val; omega
    | ⟨3, _⟩ => show win0_0.index t (3 : Fin 4) * 512 + 1 * (j 3).val = win0_2.index t (3 : Fin 4) * 512 + 1 * (j 3).val; omega
  · funext a; apply Fin.ext
    match a with
    | ⟨0, _⟩ => show win0_1.index t (0 : Fin 4) * 2 + 1 * (j 0).val = win0_2.index t (0 : Fin 4) * 2 + 1 * (j 0).val; omega
    | ⟨1, _⟩ => show win0_1.index t (1 : Fin 4) * 1 + 1 * 0 = 0; omega
    | ⟨2, _⟩ => show win0_1.index t (2 : Fin 4) * 512 + 1 * (j 2).val = win0_2.index t (2 : Fin 4) * 512 + 1 * (j 2).val; omega
    | ⟨3, _⟩ => show win0_1.index t (3 : Fin 4) * 512 + 1 * (j 3).val = win0_2.index t (3 : Fin 4) * 512 + 1 * (j 3).val; omega

/-- An index of the array is in point `t`'s output block iff each coordinate is in the block's range on its axis. -/
theorem mem_blk (t : Fin cfg0.N) (i : S32x3x512x512.Idx) :
    i ∈ ((cfg0.win 2).blk t).view.set ↔ ∀ a : Fin 4, win0_2.index t a * S2x3x512x512.size a ≤ (i a).val
      ∧ (i a).val < win0_2.index t a * S2x3x512x512.size a + S2x3x512x512.size a := by
  show i ∈ ((View.whole main_v0).slice (win0_2.rect t)).set ↔ _
  rw [View.set_slice_whole, Rect.mem_set_unit]
  exact Iff.rfl

/-- THE BLOCKS COVER THE ARRAY: batch entry `b` is in the block of point `b / 2`. -/
theorem cover (i : S32x3x512x512.Idx) :
    ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 512 := (i 2).isLt
  have hi3 : (i 3).val < 512 := (i 3).isLt
  have hN : cfg0.N = 16 := N_0
  have ht : (i 0).val / 2 < cfg0.N := by rw [hN]; omega
  obtain ⟨-, -, -, -, -, -, -, -, c0, c1, c2, c3⟩ := idx_facts ⟨(i 0).val / 2, ht⟩
  have c0' : win0_2.index ⟨(i 0).val / 2, ht⟩ (0 : Fin 4) = (i 0).val / 2 := c0
  refine ⟨⟨(i 0).val / 2, ht⟩, flush0_2 _, ?_⟩
  rw [mem_blk]
  intro a
  match a with
  | ⟨0, _⟩ =>
    show win0_2.index ⟨(i 0).val / 2, ht⟩ (0 : Fin 4) * 2 ≤ (i 0).val ∧ (i 0).val < win0_2.index ⟨(i 0).val / 2, ht⟩ (0 : Fin 4) * 2 + 2
    omega
  | ⟨1, _⟩ =>
    show win0_2.index ⟨(i 0).val / 2, ht⟩ (1 : Fin 4) * 3 ≤ (i 1).val ∧ (i 1).val < win0_2.index ⟨(i 0).val / 2, ht⟩ (1 : Fin 4) * 3 + 3
    omega
  | ⟨2, _⟩ =>
    show win0_2.index ⟨(i 0).val / 2, ht⟩ (2 : Fin 4) * 512 ≤ (i 2).val ∧ (i 2).val < win0_2.index ⟨(i 0).val / 2, ht⟩ (2 : Fin 4) * 512 + 512
    omega
  | ⟨3, _⟩ =>
    show win0_2.index ⟨(i 0).val / 2, ht⟩ (3 : Fin 4) * 512 ≤ (i 3).val ∧ (i 3).val < win0_2.index ⟨(i 0).val / 2, ht⟩ (3 : Fin 4) * 512 + 512
    omega

/-- THE ARRAY after the run is the noisy image of the argument arrays as launched. -/
theorem final (c : Dev nD) :
    (dats m 0 c).arrAt 2 cfg0.N
      = noisy (m ((c : Thread nD τ).loc main_arg0)) (m ((c : Thread nD τ).loc main_arg1)) :=
  (dats m 0 c).arrAt_eq_of_cover 2 (noisy (V m c main_arg0) (V m c main_arg1)) (fun t _ => flushed_eq m c t) cover

/-- The kernel's run: every weakly fair execution ends with the result array at the noisy image of the two
    arguments, which end unchanged. -/
theorem run : θ_run defs (onTc (τ := τ) (main (F := F))) ⟨m, fun _ => 0, ρ⟩ fun r => ∀ c : Dev nD,
      r.2.mem ((c : Thread nD τ).loc main_v0)
        = noisy (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Noise

end
-- ==== Proof.lean ====
/-
  Salt-and-pepper noise on a batch of images: the kernel against its reference.

  Both programs take an image f32[32, 3, 512, 512] and an integer mask i32[32, 1, 512, 512] and return the
  image with each pixel replaced by 0 where the mask entry of its batch entry, row and column is 0, by 1
  where that entry is 1, and kept otherwise; the mask's single channel serves all three channels of the
  image. The kernel walks the batch two entries at a time and, within a block, one channel at a time; the
  reference broadcasts the two comparisons over the channels and chooses on the whole array. Both make the
  same two integer comparisons and the same two choices among the same two float words and the pixel, so
  the results agree entry by entry at every float instance: no law of the extended reals is needed, and the
  finiteness of the image is never used.

  The three frames are the kernel's generated frame at each instance and the reference's generated run with
  its result dropped. The idealization rewrote nothing, so `preserves` is `True`. For `algebraic`:
  the kernel's result array is the noisy image of the arguments (Proof/Whole.lean: what a grid point writes
  back, Proof/Block.lean, is a block of it, and the sixteen blocks cover the array), and so is the
  reference's (Proof/Reference.lean); the function itself is Proof/SaltPepper.lean.
-/
import proofs.«176894_j10471130267771_2_alg».proof.Defs
import proofs.«176894_j10471130267771_2_alg».proof.Proof.Gen.Kernel
import proofs.«176894_j10471130267771_2_alg».proof.Proof.Gen.Kernel.Frame
import proofs.«176894_j10471130267771_2_alg».proof.Proof.Gen.KernelIdeal
import proofs.«176894_j10471130267771_2_alg».proof.Proof.Gen.KernelIdeal.Frame
import proofs.«176894_j10471130267771_2_alg».proof.Proof.Gen.KernelIdeal.Value
import proofs.«176894_j10471130267771_2_alg».proof.Proof.Gen.ReferenceIdeal
import proofs.«176894_j10471130267771_2_alg».proof.Proof.Gen.ReferenceIdeal.Run
import proofs.«176894_j10471130267771_2_alg».proof.Proof.Gen.ReferenceIdeal.Read
import proofs.«176894_j10471130267771_2_alg».proof.Proof.Gen.Pre_finite_inputs
import proofs.«176894_j10471130267771_2_alg».proof.Proof.Reference
import proofs.«176894_j10471130267771_2_alg».proof.Proof.Whole

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the image and the mask, both programs end with the noisy image of them. -/
theorem algebraic : Cert.algebraic_KernelIdeal_ReferenceIdeal := by
  intro m ρ m' ρ' _ hagree
  refine ⟨_, Cert.KernelIdeal.Noise.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Noise.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
